-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x2048 : Shape := ⟨2, ![2048, 2048]⟩
abbrev S2048x512 : Shape := ⟨2, ![2048, 512]⟩
abbrev S1x512 : Shape := ⟨2, ![1, 512]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S1x4096, .f32⟩
  | .hbm, ⟨7, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  transposes_S4096x4096_S4096x4096_1_0 : S4096x4096.Transposes [1, 0] S4096x4096
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x4096.size a
  hwx0_0 : ∀ i : grid0.Coords, EltTy.bits .bf16 = 32 ∨ (Rect.block (s := S8192x4096) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x4096.size a
  hwx0_3 : ∀ i : grid0.Coords, EltTy.bits .f32 = 32 ∨ (Rect.block (s := S8192x4096) S2048x512.size (cc0_transform_3 i) (hinb0_3 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What one run of the kernel body leaves behind, as a function of what it loaded.

  The body keeps a 2048 x 512 accumulator between consecutive grid points. On the first half of the contraction axis it
  first stores a block of zeros in the accumulator, reads it back, and stores "accumulator + (x-block times w-block)";
  on the second half it reads the accumulator the point before left, stores "accumulator + product" in it, reads that
  back, and writes "accumulator + bias row (broadcast down the rows)" to the output block. Each lemma says that the
  contents a case leaves are the corresponding composition of the body's three pure stages, for any float values.
-/
import proofs.«133399_j43765716746849_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- A block stored or loaded whole starts at offset zero on both axes. -/
theorem hz : (![0, 0] : Fin 2 → Nat) = fun _ => 0 := funext fun a => by fin_cases a <;> rfl

/-- First half of the contraction: the accumulator ends at `zeros + x-block * w-block`. -/
theorem scratch_A (c : Dev nD) (i : grid0.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : cond0_0 i) (hc1 : ¬cond0_1 i)
    (x0 : Vec F S2048x2048 .bf16) (x1 : Vec F S2048x512 .bf16) (x2 : Vec F S1x512 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x512) hz, View.readCov_unit_zero (S := S2048x512) _ hz]
  simp only [View.readAt_eq_ld, harg3.read_unread, harg4.read_unread, View.ld_unit_zero (S := S2048x2048) hz, View.ld_unit_zero (S := S2048x512) hz]

/-- Second half: the accumulator ends at `previous accumulator + x-block * w-block`. -/
theorem scratch_B (c : Dev nD) (i : grid0.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i)
    (x0 : Vec F S2048x2048 .bf16) (x1 : Vec F S2048x512 .bf16) (x2 : Vec F S1x512 .f32) (xs0 : Vec F S2048x512 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero (S := S2048x512) hz]
  simp only [View.readAt_eq_ld, harg3.read_unread, harg4.read_unread, harg7.read_unread, View.ld_unit_zero (S := S2048x2048) hz, View.ld_unit_zero (S := S2048x512) hz]

/-- Second half: the output block is that accumulator plus the bias row broadcast down the rows. -/
theorem out_B (c : Dev nD) (i : grid0.Coords) (arg3 : Memref sig .tc .vmem S2048x2048 .bf16) (harg3 : arg3.IsWhole) (arg4 : Memref sig .tc .vmem S2048x512 .bf16) (harg4 : arg4.IsWhole) (arg5 : Memref sig .tc .vmem S1x512 .f32) (harg5 : arg5.IsWhole) (arg6 : Memref sig .tc .vmem S2048x512 .f32) (harg6 : arg6.IsWhole) (arg7 : Memref sig .tc .vmem S2048x512 .f32) (harg7 : arg7.IsWhole) (hc0 : ¬cond0_0 i) (hc1 : cond0_1 i)
    (x0 : Vec F S2048x2048 .bf16) (x1 : Vec F S2048x512 .bf16) (x2 : Vec F S1x512 .f32) (xs0 : Vec F S2048x512 .f32) :
    out0_B_3 c i arg3 harg3 arg4 harg4 arg5 harg5 arg6 harg6 arg7 harg7 hc0 hc1 x0 x1 x2 xs0 = k0_pay3 (k0_pay2 xs0 x0 x1) x2 := by
  unfold out0_B_3
  rw [View.read_writes_eq_canon _ _ _ (cover0_B_3 c i arg3 harg3 arg4 harg4 arg5 harg5 arg6 harg6 arg7 harg7 hc0 hc1 x0 x1 x2 xs0)]
  unfold kernelRun0_B
  dsimp only
  sl_unfold_words
  rw [View.canon_unit_zero (S := S2048x512) hz, View.readCov_unit_zero (S := S2048x512) _ hz]
  simp only [View.readAt_eq_ld, harg3.read_unread, harg4.read_unread, harg5.read_unread, harg7.read_unread, View.ld_unit_zero (S := S2048x2048) hz, View.ld_unit_zero (S := S2048x512) hz, View.ld_unit_zero (S := S1x512) hz]

end Cert.KernelIdeal.Pieces

end
-- ==== Proof.Chain.lean ====
/-
  What the accumulator and the output block hold after a grid point, in terms of the three stages of the body and the
  blocks the point was handed. The grid's innermost axis is the contraction axis, of extent two, so consecutive points
  2n and 2n + 1 work on the same output block: the even point zeroes the accumulator and adds the first half's product,
  the odd point adds the second half's product and writes "accumulator + bias" to the output block.
-/
import proofs.«133399_j43765716746849_2_alg».proof.Proof.Pieces

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable {F : FTy → Type} [FloatOps F]
variable (m : (ℓ : Loc nD τ sig) → Buf (Elt F) ℓ)

/-- After an even point the accumulator holds zeros plus the product of the point's x and w blocks. -/
theorem acc_even (c : Dev nD) (s : Fin cfg0.N) (h0 : s.val % 2 = 0) (h1 : ¬s.val % 2 = 1) :
    (outsAt0 m c s.val s.isLt).2 = k0_pay2 (k0_pay1 (F := F)) (iblk m c 0 s) (iblk m c 1 s) := by
  rw [outsAt0_A m c s h0 h1]
  dsimp only
  exact Pieces.scratch_A (F := F) c (grid0.coords s) (ms0_0 s) (hs0_0 s) (ms0_1 s) (hs0_1 s) (ms0_2 s) (hs0_2 s) (ms0_3 s) (hs0_3 s) scM0_0 (Memref.isWhole_whole _) ((hcond0_0 s).mpr h0) (fun h => h1 ((hcond0_1 s).mp h)) (iblk m c 0 s) (iblk m c 1 s) (iblk m c 2 s)

/-- After an odd point the output block holds: the accumulator the point before left, plus the product of this point's
    x and w blocks, plus the bias row. -/
theorem out_odd (c : Dev nD) (t : Fin cfg0.N) (h0 : ¬t.val % 2 = 0) (h1 : t.val % 2 = 1) :
    (outsAt0 m c t.val t.isLt).1
      = k0_pay3 (k0_pay2 (outsAt0 m c (t.val - 1) (Nat.lt_of_le_of_lt (Nat.sub_le _ _) t.isLt)).2 (iblk m c 0 t) (iblk m c 1 t)) (iblk m c 2 t) := by
  rw [outsAt0_B m c t h0 h1]
  dsimp only
  exact Pieces.out_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- Both halves together: at an odd point t, with s = t - 1 the even point before it. -/
theorem out_pair (c : Dev nD) (t s : Fin cfg0.N) (h1 : t.val % 2 = 1) (hs : s.val = t.val - 1) :
    (outsAt0 m c t.val t.isLt).1
      = k0_pay3 (k0_pay2 (k0_pay2 (k0_pay1 (F := F)) (iblk m c 0 s) (iblk m c 1 s)) (iblk m c 0 t) (iblk m c 1 t)) (iblk m c 2 t) := by
  rw [out_odd m c t (by omega) h1]
  have e : (outsAt0 m c (t.val - 1) (Nat.lt_of_le_of_lt (Nat.sub_le _ _) t.isLt)).2 = (outsAt0 m c s.val s.isLt).2 := by
    congr 2
    exact hs.symm
  rw [e, acc_even m c s (by omega) (by omega)]

end Cert.KernelIdeal.Chain

end
-- ==== Proof.Payload.lean ====
/-
  The body's three pure stages read at one entry (r, l) of a 2048 x 512 block, on the extended reals:
  the zero block is 0 everywhere; the accumulating stage is "accumulator + sum over k < 2048 of x[r, k] * w[k, l]"
  (the matrix product into a zero accumulator is the plain sum of products); the last stage adds the bias row's entry l.
-/
import proofs.«133399_j43765716746849_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The stored zero block is the extended real 0 at every entry. -/
theorem zeros_apply (j : S2048x512.Idx) : k0_pay1 (F := Ideal) j = 0 := by
  unfold k0_pay1
  rw [shapeCast_self]
  exact Ideal.ofBits_zero_f32

/-! The product's operand indices at output entry i and contraction index q: (i 0, q) on the left, (q, i 1) on the right. -/

theorem lhs_row (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem lhs_col (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem rhs_row (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem rhs_col (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The block product into a zero accumulator, at entry (r, l): the sum over k of x[r, k] * w[k, l]. -/
theorem product_apply (x : FVec Ideal S2048x2048 .bf16) (w : FVec Ideal S2048x512 .bf16) (r : Fin 2048) (l : Fin 512) :
    matmul dot_S2048x2048_S2048x512_S2048x512_1_0_0_1_n_n none x w (constant (F := Ideal) S2048x512 .f32 0x00000000#32) (ix2 r l)
      = ∑ k : Fin 2048, x (ix2 r k) * w (ix2 k l) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 r l) ((contrEquiv1 dot_S2048x2048_S2048x512_S2048x512_1_0_0_1_n_n 2048 rfl rfl).symm k) = ix2 r k := funext fun a => Fin.ext (by
    match a with
    | ⟨0, _⟩ => exact lhs_row _ _
    | ⟨1, _⟩ => exact (lhs_col _ _).trans hk)
  have er : dot_S2048x2048_S2048x512_S2048x512_1_0_0_1_n_n.rhsIdx (ix2 r l) ((contrEquiv1 dot_S2048x2048_S2048x512_S2048x512_1_0_0_1_n_n 2048 rfl rfl).symm k) = ix2 k l := funext fun a => Fin.ext (by
    match a with
    | ⟨0, _⟩ => exact (rhs_row _ _).trans hk
    | ⟨1, _⟩ => exact rhs_col _ _)
  rw [el, er]

/-- The accumulating stage at entry (r, l). -/
theorem accumulate_apply (acc : Vec Ideal S2048x512 .f32) (x : Vec Ideal S2048x2048 .bf16) (w : Vec Ideal S2048x512 .bf16)
    (r : Fin 2048) (l : Fin 512) :
    k0_pay2 acc x w (ix2 r l) = acc (ix2 r l) + ∑ k : Fin 2048, x (ix2 r k) * w (ix2 k l) := by
  unfold k0_pay2
  rw [shapeCast_self, shapeCast_self, shapeCast_self]
  exact congrArg (acc (ix2 r l) + ·) (product_apply x w r l)

/-- The last stage at entry (r, l): the accumulator's entry plus entry l of the bias row. -/
theorem bias_apply (acc : Vec Ideal S2048x512 .f32) (b : Vec Ideal S1x512 .f32) (r : Fin 2048) (l : Fin 512) :
    k0_pay3 acc b (ix2 r l) = acc (ix2 r l) + b (ix2 (0 : Fin 1) l) := by
  unfold k0_pay3
  rw [shapeCast_self]
  refine congrArg (acc (ix2 r l) + ·) ?_
  exact broadcastTo_apply b broadcasts_S1x512_S2048x512 (ix2 r l) (ix2 (0 : Fin 1) l) (fun a => match a with
    | ⟨0, _⟩ => by show (0 : ℕ) = if (1 : ℕ) = 1 then 0 else _; rw [if_pos rfl]
    | ⟨1, _⟩ => by show l.val = if (512 : ℕ) = 1 then 0 else l.val; rw [if_neg (by decide)])

/-- The three stages composed as two consecutive points run them, at entry (r, l): zero, plus the first point's product,
    plus the second point's product, plus the bias. -/
theorem pair_apply (xs : Vec Ideal S2048x2048 .bf16) (ws : Vec Ideal S2048x512 .bf16)
    (xt : Vec Ideal S2048x2048 .bf16) (wt : Vec Ideal S2048x512 .bf16) (bt : Vec Ideal S1x512 .f32) (r : Fin 2048) (l : Fin 512) :
    k0_pay3 (k0_pay2 (k0_pay2 (k0_pay1 (F := Ideal)) xs ws) xt wt) bt (ix2 r l)
      = (((0 : EReal) + ∑ k : Fin 2048, xs (ix2 r k) * ws (ix2 k l)) + ∑ k : Fin 2048, xt (ix2 r k) * wt (ix2 k l))
          + bt (ix2 (0 : Fin 1) l) := by
  rw [bias_apply, accumulate_apply, accumulate_apply, zeros_apply]

end Cert.KernelIdeal.Payload

end
-- ==== Proof.Blocks.lean ====
/-
  What the kernel's call is handed, read back to the three arguments.

  Before the call, x is rounded to bf16, w is transposed and rounded to bf16, and b is reshaped to a single row; on
  the extended reals the roundings are the identity, so the call's operands are x, w transposed, and b as a row.
  The grid is 4 x 8 x 2 (row tiles, column tiles, halves of the contraction axis); point t = 16 i + 2 j + k is handed
  rows 2048 i .. of x and columns 2048 k .. of x, rows 2048 k .. and columns 512 j .. of the transposed w, columns
  512 j .. of the bias row, and writes rows 2048 i .., columns 512 j .. of the result.
-/
import proofs.«133399_j43765716746849_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem

namespace Cert.KernelIdeal.Blocks

open Cert.KernelIdeal Cert.KernelIdeal.Gen Idealize.ShloMosaic.ValueIdx Idealize.ShloMosaic.StableHlo

variable (m : (ℓ : Loc nD τ sig) → Buf (Elt Ideal) ℓ)

/-- x is rounded to bf16 before the call: at the extended reals, the same numbers. -/
theorem entry_x (c : Dev nD) (i : S8192x4096.Idx) :
    (V m c main_v0 : S8192x4096.Idx → EReal) i = (m ((c : Thread nD τ).loc main_arg0) : S8192x4096.Idx → EReal) i := by
  have e : (V m c main_v0 : S8192x4096.Idx → EReal)
      = (truncf (F := Ideal) .bf16 (m ((c : Thread nD τ).loc main_arg0) : FVec Ideal S8192x4096 .f32) bitsLt_bf16_f32 : FVec Ideal S8192x4096 .bf16) := by
    dsimp only [Gen.V, Gen.hostOps0]; after_results
  rw [e]; rfl

/-- w is transposed, then rounded to bf16: entry (k, o) of what the call receives is w[o, k]. -/
theorem entry_w (c : Dev nD) (k o : Fin 4096) :
    (V m c main_v2 : S4096x4096.Idx → EReal) (ix2 k o) = (m ((c : Thread nD τ).loc main_arg1) : S4096x4096.Idx → EReal) (ix2 o k) := by
  have e : (V m c main_v2 : S4096x4096.Idx → EReal)
      = (truncf (F := Ideal) .bf16 (transpose S4096x4096 [1, 0] (m ((c : Thread nD τ).loc main_arg1) : FVec Ideal S4096x4096 .f32) transposes_S4096x4096_S4096x4096_1_0) bitsLt_bf16_f32 : FVec Ideal S4096x4096 .bf16) := by
    dsimp only [Gen.V, Gen.hostOps0]; after_results
  rw [e]
  show transpose S4096x4096 [1, 0] (m ((c : Thread nD τ).loc main_arg1) : FVec Ideal S4096x4096 .f32) transposes_S4096x4096_S4096x4096_1_0 (ix2 k o) = _
  exact transpose_apply [1, 0] _ transposes_S4096x4096_S4096x4096_1_0 (ix2 k o) (ix2 o k) (fun b => match b with
    | ⟨0, _⟩ => rfl
    | ⟨1, _⟩ => rfl)

/-- b is reshaped to one row: entry (0, o) of what the call receives is b[o]. -/
theorem entry_b (c : Dev nD) (o : Fin 4096) :
    (V m c main_v3 : S1x4096.Idx → EReal) (ix2 (0 : Fin 1) o) = (m ((c : Thread nD τ).loc main_arg2) : S4096.Idx → EReal) (ix1 o) := by
  have e : (V m c main_v3 : S1x4096.Idx → EReal)
      = shapeCast S1x4096 (m ((c : Thread nD τ).loc main_arg2) : S4096.Idx → EReal) shapeCasts_S4096_S1x4096 := by
    dsimp only [Gen.V, Gen.hostOps0]; after_results; rfl
  rw [e]
  refine (shapeCast_addUnit_apply ![4096] _ shapeCasts_S4096_S1x4096 (ix2 (0 : Fin 1) o)).trans ?_
  refine congrArg _ (funext fun a => ?_)
  match a with
  | ⟨0, _⟩ => rfl

/-- Where each window's block sits at point t. -/
theorem idx_facts : ∀ t : Fin cfg0.N,
    win0_0.index t (0 : Fin 2) = t.val / 16 ∧ win0_0.index t (1 : Fin 2) = t.val % 2
    ∧ win0_1.index t (0 : Fin 2) = t.val % 2 ∧ win0_1.index t (1 : Fin 2) = t.val / 2 % 8
    ∧ win0_2.index t (0 : Fin 2) = 0 ∧ win0_2.index t (1 : Fin 2) = t.val / 2 % 8
    ∧ win0_3.index t (0 : Fin 2) = t.val / 16 ∧ win0_3.index t (1 : Fin 2) = t.val / 2 % 8 :=
  (by decide +kernel : ∀ t : Fin grid0.N, _)

/-- The x block at point t, entry (r, k): x at row 2048 (t / 16) + r, column 2048 (t % 2) + k. -/
theorem xblk_apply (c : Dev nD) (t : Fin cfg0.N) (r k : Fin 2048) (R : Fin 8192) (K : Fin 4096)
    (hR : R.val = 2048 * (t.val / 16) + r.val) (hK : K.val = 2048 * (t.val % 2) + k.val) :
    (iblk m c 0 t : S2048x2048.Idx → EReal) (ix2 r k)
      = (m ((c : Thread nD τ).loc main_arg0) : S8192x4096.Idx → EReal) (ix2 R K) := by
  obtain ⟨e0, e1, -⟩ := idx_facts t
  unfold iblk
  rw [View.read_apply]
  show (V m c main_v0 : S8192x4096.Idx → EReal) (((cfg0.win 0).blk t).view.emb (ix2 r k)) = _
  have he : ((cfg0.win 0).blk t).view.emb (ix2 r k) = ix2 R K := funext fun a => Fin.ext (by
    match a with
    | ⟨0, _⟩ => show win0_0.index t (0 : Fin 2) * 2048 + 1 * r.val = R.val; rw [e0, hR]; omega
    | ⟨1, _⟩ => show win0_0.index t (1 : Fin 2) * 2048 + 1 * k.val = K.val; rw [e1, hK]; omega)
  rw [he]
  exact entry_x m c (ix2 R K)

/-- The w block at point t, entry (k, l): w at row 512 (t / 2 % 8) + l, column 2048 (t % 2) + k. -/
theorem wblk_apply (c : Dev nD) (t : Fin cfg0.N) (k : Fin 2048) (l : Fin 512) (O K : Fin 4096)
    (hO : O.val = 512 * (t.val / 2 % 8) + l.val) (hK : K.val = 2048 * (t.val % 2) + k.val) :
    (iblk m c 1 t : S2048x512.Idx → EReal) (ix2 k l)
      = (m ((c : Thread nD τ).loc main_arg1) : S4096x4096.Idx → EReal) (ix2 O K) := by
  obtain ⟨-, -, e2, e3, -⟩ := idx_facts t
  unfold iblk
  rw [View.read_apply]
  show (V m c main_v2 : S4096x4096.Idx → EReal) (((cfg0.win 1).blk t).view.emb (ix2 k l)) = _
  have he : ((cfg0.win 1).blk t).view.emb (ix2 k l) = ix2 K O := funext fun a => Fin.ext (by
    match a with
    | ⟨0, _⟩ => show win0_1.index t (0 : Fin 2) * 2048 + 1 * k.val = K.val; rw [e2, hK]; omega
    | ⟨1, _⟩ => show win0_1.index t (1 : Fin 2) * 512 + 1 * l.val = O.val; rw [e3, hO]; omega)
  rw [he]
  exact entry_w m c K O

/-- The bias block at point t, entry (0, l): b at 512 (t / 2 % 8) + l. -/
theorem bblk_apply (c : Dev nD) (t : Fin cfg0.N) (l : Fin 512) (O : Fin 4096)
    (hO : O.val = 512 * (t.val / 2 % 8) + l.val) :
    (iblk m c 2 t : S1x512.Idx → EReal) (ix2 (0 : Fin 1) l)
      = (m ((c : Thread nD τ).loc main_arg2) : S4096.Idx → EReal) (ix1 O) := by
  obtain ⟨-, -, -, -, e4, e5, -⟩ := idx_facts t
  unfold iblk
  rw [View.read_apply]
  show (V m c main_v3 : S1x4096.Idx → EReal) (((cfg0.win 2).blk t).view.emb (ix2 (0 : Fin 1) l)) = _
  have he : ((cfg0.win 2).blk t).view.emb (ix2 (0 : Fin 1) l) = ix2 (0 : Fin 1) O := funext fun a => Fin.ext (by
    match a with
    | ⟨0, _⟩ => show win0_2.index t (0 : Fin 2) * 1 + 1 * (0 : Fin 1).val = (0 : Fin 1).val; rw [e4]; omega
    | ⟨1, _⟩ => show win0_2.index t (1 : Fin 2) * 512 + 1 * l.val = O.val; rw [e5, hO]; omega)
  rw [he]
  exact entry_b m c O

/-- Entry (r, l) of the output block at point t is entry (2048 (t / 16) + r, 512 (t / 2 % 8) + l) of the result. -/
theorem out_index (t : Fin cfg0.N) (r : Fin 2048) (l : Fin 512) (R : Fin 8192) (O : Fin 4096)
    (hR : R.val = 2048 * (t.val / 16) + r.val) (hO : O.val = 512 * (t.val / 2 % 8) + l.val) :
    ((cfg0.win 3).blk t).view.emb (ix2 r l) = ix2 R O := by
  obtain ⟨-, -, -, -, -, -, e6, e7⟩ := idx_facts t
  exact funext fun a => Fin.ext (by
    match a with
    | ⟨0, _⟩ => show win0_3.index t (0 : Fin 2) * 2048 + 1 * r.val = R.val; rw [e6, hR]; omega
    | ⟨1, _⟩ => show win0_3.index t (1 : Fin 2) * 512 + 1 * l.val = O.val; rw [e7, hO]; omega)

/-- An entry of the result lies in point t's output block iff each coordinate lies in the block's range. -/
theorem mem_out_blk (t : Fin cfg0.N) (i : S8192x4096.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v4).slice (win0_3.rect t)).set ↔ _
  rw [View.set_slice_whole, Rect.mem_set_unit]
  exact Iff.rfl

end Cert.KernelIdeal.Blocks

end
-- ==== Proof.Spec.lean ====
/-
  The linear layer as one function of the argument arrays, on the extended reals:

      out[t, o] = (sum over k < 4096 of x[t, k] * w[o, k]) + b[o].

  The kernel reaches the same entry by splitting the contraction axis into two halves of 2048 and adding the halves, in
  order, to an accumulator that starts at zero. The only law needed to join the two is that a finite sum over
  4096 = 2048 + 2048 terms is the sum of its two halves, together with 0 + a = a; both hold in any additive commutative
  monoid, so in particular on the extended reals with their infinities, and no finiteness of the inputs is used.
-/
import Idealize.ShloMosaic.PureOps.Ideal
import Idealize.ShloMosaic.Lib.ValueIdx

noncomputable section

namespace Cert.Linear

open Idealize.ShloMosaic Idealize.ShloMosaic.ValueIdx

/-- Entry (t, o) of the layer's result: row t of x against row o of w, plus the bias at o. -/
def entry (x : (⟨2, ![8192, 4096]⟩ : Shape).Idx → EReal) (w : (⟨2, ![4096, 4096]⟩ : Shape).Idx → EReal)
    (b : (⟨1, ![4096]⟩ : Shape).Idx → EReal) (t : Fin 8192) (o : Fin 4096) : EReal :=
  (∑ k : Fin 4096, x (ix2 t k) * w (ix2 o k)) + b (ix1 o)

/-- The whole result array. -/
def lin (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => entry x w b (i 0) (i 1)

theorem lin_apply (x : (⟨2, ![8192, 4096]⟩ : Shape).Idx → EReal) (w : (⟨2, ![4096, 4096]⟩ : Shape).Idx → EReal)
    (b : (⟨1, ![4096]⟩ : Shape).Idx → EReal) (t : Fin 8192) (o : Fin 4096) :
    lin x w b (ix2 t o) = entry x w b t o := rfl

/-- A sum over 4096 terms is the sum over the first 2048 plus the sum over the last 2048. -/
theorem sum_halves {M : Type} [AddCommMonoid M] (f : Fin 4096 → M) :
    (∑ k : Fin 4096, f k)
      = (∑ k : Fin 2048, f ⟨k.val, by omega⟩) + ∑ k : Fin 2048, f ⟨2048 + k.val, by omega⟩ :=
  Fin.sum_univ_add (a := 2048) (b := 2048) f

/-- The accumulated form: zero, plus the first half, plus the second half, is the whole sum. -/
theorem halves_chain {M : Type} [AddCommMonoid M] (f : Fin 4096 → M) :
    ((0 : M) + ∑ k : Fin 2048, f ⟨k.val, by omega⟩) + (∑ k : Fin 2048, f ⟨2048 + k.val, by omega⟩)
      = ∑ k : Fin 4096, f k := by
  rw [zero_add, sum_halves]

end Cert.Linear

end
-- ==== Proof.KernelValue.lean ====
/-
  The kernel's result array is the layer's function of its three arguments.

  Only the odd grid points write an output block back. At such a point t = 16 i + 2 j + 1 the block's entry (r, l) is
  ((0 + first half of the contraction) + second half) + bias, read at row 2048 i + r and column 512 j + l of the
  arguments; the two halves make the whole sum over k < 4096, so the block is the corresponding block of the layer's
  function. The blocks written at the 32 odd points tile the 8192 x 4096 result: entry (a, b) lies in the block of the
  point 16 (a / 2048) + 2 (b / 512) + 1. Hence the whole array is the layer's function.
-/
import proofs.«133399_j43765716746849_2_alg».proof.Proof.Gen.KernelIdeal.Value
import proofs.«133399_j43765716746849_2_alg».proof.Proof.Chain
import proofs.«133399_j43765716746849_2_alg».proof.Proof.Payload
import proofs.«133399_j43765716746849_2_alg».proof.Proof.Blocks
import proofs.«133399_j43765716746849_2_alg».proof.Proof.Spec

noncomputable section

open Idealize.ShloMosaic Idealize.ShloMosaic.TcCoe Idealize.SL.Sem
open Idealize.ShloMosaic.Pipeline (Dat)

namespace Cert.KernelIdeal.LinValue

open Cert.KernelIdeal Cert.KernelIdeal.Gen Idealize.ShloMosaic.ValueIdx Cert.Linear

variable (m : (ℓ : Loc nD τ sig) → Buf (Elt Ideal) ℓ) (ρ : Dev nD → PrngReg)

/-- The layer's function of the three launch arguments on core c. -/
def result (c : Dev nD) : S8192x4096.Idx → EReal :=
  lin (m ((c : Thread nD τ).loc main_arg0) : S8192x4096.Idx → EReal) (m ((c : Thread nD τ).loc main_arg1) : S4096x4096.Idx → EReal) (m ((c : Thread nD τ).loc main_arg2) : S4096.Idx → EReal)

/-- What an odd point writes back is its block of the layer's function. -/
theorem flushed_eq (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  have hN : cfg0.N = 64 := N_0
  have ht : t.val < 64 := lt_of_lt_of_eq t.isLt hN
  have hs : t.val - 1 < cfg0.N := by omega
  rw [Value.flushed3, Chain.out_pair m c t ⟨t.val - 1, hs⟩ h1 rfl]
  funext y
  obtain ⟨r, l, rfl⟩ : ∃ (r : Fin 2048) (l : Fin 512), y = ix2 r l := ⟨y 0, y 1, eq_ix2 y⟩
  rw [View.read_apply]
  have hx : (cfg0.win 3).xinj (grid0.coords t) (ix2 r l) = ix2 r l := funext fun a => by
    match a with
    | ⟨0, _⟩ => rfl
    | ⟨1, _⟩ => rfl
  show k0_pay3 (k0_pay2 (k0_pay2 (k0_pay1 (F := Ideal)) (iblk m c 0 ⟨t.val - 1, hs⟩) (iblk m c 1 ⟨t.val - 1, hs⟩)) (iblk m c 0 t) (iblk m c 1 t)) (iblk m c 2 t) ((cfg0.win 3).xinj (grid0.coords t) (ix2 r l)) = _
  rw [hx]
  refine (Payload.pair_apply (iblk m c 0 ⟨t.val - 1, hs⟩) (iblk m c 1 ⟨t.val - 1, hs⟩) (iblk m c 0 t) (iblk m c 1 t) (iblk m c 2 t) r l).trans ?_
  have hRlt : 2048 * (t.val / 16) + r.val < 8192 := by omega
  have hOlt : 512 * (t.val / 2 % 8) + l.val < 4096 := by omega
  rw [Blocks.out_index t r l ⟨2048 * (t.val / 16) + r.val, hRlt⟩ ⟨512 * (t.val / 2 % 8) + l.val, hOlt⟩ rfl rfl]
  unfold result
  rw [lin_apply]
  unfold entry
  rw [← halves_chain]
  refine congrArg₂ (· + ·) (congrArg₂ (· + ·) (congrArg ((0 : EReal) + ·) (Finset.sum_congr rfl fun k _ => ?_))
    (Finset.sum_congr rfl fun k _ => ?_)) ?_
  · exact congrArg₂ (· * ·)
      (Blocks.xblk_apply m c ⟨t.val - 1, hs⟩ r k ⟨2048 * (t.val / 16) + r.val, hRlt⟩ ⟨k.val, by omega⟩
        (by show 2048 * (t.val / 16) + r.val = 2048 * ((t.val - 1) / 16) + r.val; omega)
        (by show k.val = 2048 * ((t.val - 1) % 2) + k.val; omega))
      (Blocks.wblk_apply m c ⟨t.val - 1, hs⟩ k l ⟨512 * (t.val / 2 % 8) + l.val, hOlt⟩ ⟨k.val, by omega⟩
        (by show 512 * (t.val / 2 % 8) + l.val = 512 * ((t.val - 1) / 2 % 8) + l.val; omega)
        (by show k.val = 2048 * ((t.val - 1) % 2) + k.val; omega))
  · exact congrArg₂ (· * ·)
      (Blocks.xblk_apply m c t r k ⟨2048 * (t.val / 16) + r.val, hRlt⟩ ⟨2048 + k.val, by omega⟩ rfl
        (by show 2048 + k.val = 2048 * (t.val % 2) + k.val; omega))
      (Blocks.wblk_apply m c t k l ⟨512 * (t.val / 2 % 8) + l.val, hOlt⟩ ⟨2048 + k.val, by omega⟩ rfl
        (by show 2048 + k.val = 2048 * (t.val % 2) + k.val; omega))
  · exact Blocks.bblk_apply m c t l ⟨512 * (t.val / 2 % 8) + l.val, hOlt⟩ rfl

/-- Every entry of the result lies in the block some odd point writes back. -/
theorem cover (i : S8192x4096.Idx) :
    ∃ t : Fin cfg0.N, (cfg0.win 3).flush t = true ∧ i ∈ ((cfg0.win 3).blk t).view.set := by
  have hN : cfg0.N = 64 := N_0
  have h0 : (i 0).val < 8192 := (i 0).isLt
  have h1 : (i 1).val < 4096 := (i 1).isLt
  obtain ⟨n, hn⟩ : ∃ n : ℕ, n = 16 * ((i 0).val / 2048) + 2 * ((i 1).val / 512) + 1 := ⟨_, rfl⟩
  have hlt : n < cfg0.N := by omega
  refine ⟨⟨n, hlt⟩, (flush0_3 _).mpr (by show n % 2 = 1; omega), ?_⟩
  rw [Blocks.mem_out_blk]
  obtain ⟨-, -, -, -, -, -, e6, e7⟩ := Blocks.idx_facts ⟨n, hlt⟩
  intro a
  match a with
  | ⟨0, _⟩ =>
    show win0_3.index ⟨n, hlt⟩ (0 : Fin 2) * 2048 ≤ (i 0).val ∧ (i 0).val < win0_3.index ⟨n, hlt⟩ (0 : Fin 2) * 2048 + 2048
    rw [e6]
    show n / 16 * 2048 ≤ (i 0).val ∧ (i 0).val < n / 16 * 2048 + 2048
    omega
  | ⟨1, _⟩ =>
    show win0_3.index ⟨n, hlt⟩ (1 : Fin 2) * 512 ≤ (i 1).val ∧ (i 1).val < win0_3.index ⟨n, hlt⟩ (1 : Fin 2) * 512 + 512
    rw [e7]
    show n / 2 % 8 * 512 ≤ (i 1).val ∧ (i 1).val < n / 2 % 8 * 512 + 512
    omega

/-- So after the run the result array holds the layer's function. -/
theorem final (c : Dev nD) : (dats m 0 c).arrAt 3 cfg0.N = result m c :=
  (dats m 0 c).arrAt_eq_of_cover 3 (result m c) (flushed_eq m c) cover

/-- The kernel's run: it terminates with the result array at the layer's function and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.LinValue

end
-- ==== Proof.RefIsLin.lean ====
/-
  The reference, read at an index: a product of x with the transpose of w contracted over k, plus the bias broadcast
  over the rows, is at entry (t, o) the sum over k of x[t, k] * w[o, k], plus b[o] — the layer's function, by reading
  each host operation at an index and identifying the composed index maps.
-/
import proofs.«133399_j43765716746849_2_alg».proof.Proof.Gen.ReferenceIdeal.Read
import proofs.«133399_j43765716746849_2_alg».proof.Proof.Spec

noncomputable section

namespace Cert.ReferenceIdeal.RefValue

open Cert.ReferenceIdeal Cert.ReferenceIdeal.Read Idealize.ShloMosaic Idealize.ShloMosaic.ValueIdx Cert.Linear

/-- Row t of x at column k. -/
theorem lhs_index (t : Fin 8192) (o k : Fin 4096) : lidx_main_v1 (ix2 t o) k = ix2 t k :=
  funext fun a => Fin.ext (by match a with | ⟨0, _⟩ => rfl | ⟨1, _⟩ => rfl)

/-- The transposed w at (k, o) is w at (o, k). -/
theorem rhs_index (t : Fin 8192) (o k : Fin 4096) : idx_main_v0 (ridx_main_v1 (ix2 t o) k) = ix2 o k :=
  funext fun a => Fin.ext (by match a with | ⟨0, _⟩ => rfl | ⟨1, _⟩ => rfl)

/-- The bias broadcast to (t, o) is the bias at o. -/
theorem bias_index (t : Fin 8192) (o : Fin 4096) : idx_main_v2 (idx_main_v3 (ix2 t o)) = ix1 o :=
  funext fun a => Fin.ext (by match a with | ⟨0, _⟩ => rfl)

/-- The reference's result is the layer's function of its three arguments. -/
theorem ref_eq_lin (x : (⟨S8192x4096, .f32⟩ : BufTy).Contents (Elt Ideal)) (w : (⟨S4096x4096, .f32⟩ : BufTy).Contents (Elt Ideal))
    (b : (⟨S4096, .f32⟩ : BufTy).Contents (Elt Ideal)) :
    val_main_v4 (F := Ideal) x w b = lin x w b := by
  funext i
  obtain ⟨t, o, rfl⟩ : ∃ (t : Fin 8192) (o : Fin 4096), i = ix2 t o := ⟨i 0, i 1, eq_ix2 i⟩
  rw [val_main_v4_apply, val_main_v1_apply, val_main_v3_apply, val_main_v2_apply, lin_apply, bias_index]
  unfold entry
  refine congrArg (· + b (ix1 o)) (Finset.sum_congr rfl fun k _ => ?_)
  rw [val_main_v0_apply, lhs_index, rhs_index]

end Cert.ReferenceIdeal.RefValue

end
-- ==== Proof.lean ====
/-
  A linear layer, out = x @ W^T + b over f32[8192, 4096] x f32[4096, 4096] + f32[4096]: the kernel (a tiled matrix product
  whose contraction axis is split in two halves accumulated in order into a zeroed accumulator, the bias added when the
  second half is done) against the reference (one product, then the bias).

  On the extended reals both compute, at entry (t, o), the sum over k < 4096 of x[t, k] * W[o, k], plus b[o]:
  the kernel as ((0 + sum over the first 2048) + sum over the last 2048) + b[o], which is the same number because a finite
  sum splits into its halves in any additive commutative monoid. No other law is used, so the finiteness of the inputs
  is never opened. The roundings to bf16 before the product are the identity on the extended reals. The idealized
  kernel is the kernel's own text read on the extended reals, so the preservation claim is trivial.

  The three frame claims are the generated frame runs (the reference's: its generated run with the result dropped).
-/
import proofs.«133399_j43765716746849_2_alg».proof.Defs
import proofs.«133399_j43765716746849_2_alg».proof.Proof.Gen.Kernel
import proofs.«133399_j43765716746849_2_alg».proof.Proof.Gen.Kernel.Skeleton
import proofs.«133399_j43765716746849_2_alg».proof.Proof.Gen.Kernel.Launch
import proofs.«133399_j43765716746849_2_alg».proof.Proof.Gen.Kernel.Points
import proofs.«133399_j43765716746849_2_alg».proof.Proof.Gen.Kernel.Frame
import proofs.«133399_j43765716746849_2_alg».proof.Proof.Gen.KernelIdeal
import proofs.«133399_j43765716746849_2_alg».proof.Proof.Gen.KernelIdeal.Skeleton
import proofs.«133399_j43765716746849_2_alg».proof.Proof.Gen.KernelIdeal.Launch
import proofs.«133399_j43765716746849_2_alg».proof.Proof.Gen.KernelIdeal.Points
import proofs.«133399_j43765716746849_2_alg».proof.Proof.Gen.KernelIdeal.Frame
import proofs.«133399_j43765716746849_2_alg».proof.Proof.Gen.ReferenceIdeal
import proofs.«133399_j43765716746849_2_alg».proof.Proof.Gen.KernelIdeal.Value
import proofs.«133399_j43765716746849_2_alg».proof.Proof.Gen.ReferenceIdeal.Run
import proofs.«133399_j43765716746849_2_alg».proof.Proof.Gen.ReferenceIdeal.Read
import proofs.«133399_j43765716746849_2_alg».proof.Proof.Gen.Pre_finite_inputs
import proofs.«133399_j43765716746849_2_alg».proof.Proof.KernelValue
import proofs.«133399_j43765716746849_2_alg».proof.Proof.RefIsLin
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the layer's function of arguments that agree. -/
theorem algebraic : Cert.algebraic_KernelIdeal_ReferenceIdeal := by
  intro m ρ m' ρ' _ hagree
  refine ⟨fun c => Cert.KernelIdeal.LinValue.result m c, Cert.KernelIdeal.LinValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq_lin, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
